-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v8_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v8_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S2048x512 : Shape := ⟨2, ![2048, 512]⟩
abbrev S2048 : Shape := ⟨1, ![2048]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_

variable [Facts]

def fn_part1 {F : FTy → Type} [FloatOps F] (main_arg4 : FVec F S2048x512 .f32) (main_arg5 : FVec F S2048 .f32) (main_arg6 : FVec F S2048 .f32) (main_v13 : IVec S_ 1) (main_v16 : IVec S2048x512 1) : IVec S_ 1 :=
  let main_c_5 : IVec S_ 1 := constantI S_ 1 1#1
  let main_v17 : IVec S_ 1 := (fun x v => Host.reduce IntOp.andi x v reducesTo_S2048x512_S_d0_1 h_S_) main_v16 main_c_5
  let main_v18 : IVec S_ 1 := andi main_v13 main_v17
  let main_v19 : FVec F S2048x512 .f32 := Host.absf main_arg4
  let main_cst_6 : FVec F S_ .f32 := constant S_ .f32 0x7F800000#32
  let main_v20 : FVec F S2048x512 .f32 := broadcastInDim S2048x512 ![] bcast_S_S2048x512 main_cst_6
  let main_v21 : IVec S2048x512 1 := cmpf .olt main_v19 main_v20
  let main_c_7 : IVec S_ 1 := constantI S_ 1 1#1
  let main_v22 : IVec S_ 1 := (fun x v => Host.reduce IntOp.andi x v reducesTo_S2048x512_S_d0_1 h_S_) main_v21 main_c_7
  let main_v23 : IVec S_ 1 := andi main_v18 main_v22
  let main_v24 : FVec F S2048 .f32 := Host.absf main_arg5
  let main_cst_8 : FVec F S_ .f32 := constant S_ .f32 0x7F800000#32
  let main_v25 : FVec F S2048 .f32 := broadcastInDim S2048 ![] bcast_S_S2048 main_cst_8
  let main_v26 : IVec S2048 1 := cmpf .olt main_v24 main_v25
  let main_c_9 : IVec S_ 1 := constantI S_ 1 1#1
  let main_v27 : IVec S_ 1 := (fun x v => Host.reduce IntOp.andi x v reducesTo_S2048_S_d0 h_S_) main_v26 main_c_9
  let main_v28 : IVec S_ 1 := andi main_v23 main_v27
  let main_v29 : FVec F S2048 .f32 := Host.absf main_arg6
  let main_cst_10 : FVec F S_ .f32 := constant S_ .f32 0x7F800000#32
  let main_v30 : FVec F S2048 .f32 := broadcastInDim S2048 ![] bcast_S_S2048 main_cst_10
  let main_v31 : IVec S2048 1 := cmpf .olt main_v29 main_v30
  let main_c_11 : IVec S_ 1 := constantI S_ 1 1#1
  let main_v32 : IVec S_ 1 := (fun x v => Host.reduce IntOp.andi x v reducesTo_S2048_S_d0 h_S_) main_v31 main_c_11
  let main_v33 : IVec S_ 1 := andi main_v28 main_v32
  main_v33

def fn {F : FTy → Type} [FloatOps F] (main_arg0 : FVec F S8192x512 .f32) (main_arg1 : FVec F S8192x512 .f32) (main_arg2 : FVec F S8192x512 .f32) (main_arg3 : FVec F S2048x512 .f32) (main_arg4 : FVec F S2048x512 .f32) (main_arg5 : FVec F S2048 .f32) (main_arg6 : FVec F S2048 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S2048x512 .f32 := Host.absf main_arg3
  let main_cst_4 : FVec F S_ .f32 := constant S_ .f32 0x7F800000#32
  let main_v15 : FVec F S2048x512 .f32 := broadcastInDim S2048x512 ![] bcast_S_S2048x512 main_cst_4
  let main_v16 : IVec S2048x512 1 := cmpf .olt main_v14 main_v15
  fn_part1 (F := F) main_arg4 main_arg5 main_arg6 main_v13 main_v16
-- ==== Kernel.lean ====
abbrev S8192x512 : Shape := ⟨2, ![8192, 512]⟩
abbrev S2048x512 : Shape := ⟨2, ![2048, 512]⟩
abbrev S2048 : Shape := ⟨1, ![2048]⟩
abbrev S512x2048 : Shape := ⟨2, ![512, 2048]⟩
abbrev S1x2048 : Shape := ⟨2, ![1, 2048]⟩
abbrev S512x512 : Shape := ⟨2, ![512, 512]⟩

abbrev nBuf : Space → Nat
  | .hbm => 17
  | .vmem => 13
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S2048x512, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S2048x512, .f32⟩
  | .hbm, ⟨8, _⟩ => ⟨S2048x512, .bf16⟩
  | .hbm, ⟨9, _⟩ => ⟨S512x2048, .bf16⟩
  | .hbm, ⟨10, _⟩ => ⟨S2048x512, .f32⟩
  | .hbm, ⟨11, _⟩ => ⟨S2048x512, .bf16⟩
  | .hbm, ⟨12, _⟩ => ⟨S512x2048, .bf16⟩
  | .hbm, ⟨13, _⟩ => ⟨S2048, .f32⟩
  | .hbm, ⟨14, _⟩ => ⟨S1x2048, .f32⟩
  | .hbm, ⟨15, _⟩ => ⟨S8192x512, .f32⟩
  | .hbm, ⟨16, _⟩ => ⟨S8192x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  bitsLt_bf16_f32 : FTy.bits .bf16 < FTy.bits .f32
  transposes_S2048x512_S512x2048_1_0 : S2048x512.Transposes [1, 0] S512x2048
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S512x2048 : S1x2048.Broadcasts S512x2048
  slices_S512x2048_o0_0_S512x512 : S512x2048.Slices ![0, 0] S512x512
  slices_S512x2048_o0_512_S512x512 : S512x2048.Slices ![0, 512] S512x512
  slices_S512x2048_o0_1024_S512x512 : S512x2048.Slices ![0, 1024] S512x512
  slices_S512x2048_o0_1536_S512x512 : S512x2048.Slices ![0, 1536] S512x512
  dot_S512x512_S512x2048_S512x2048_1_0_0_1_n_n_wf : DotDims.WF S512x512 S512x2048 S512x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S8192x512.size a
  hwx0_0 : ∀ i : grid0.Coords, EltTy.bits .f32 = 32 ∨ (Rect.block (s := S8192x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S8192x512.size a
  hwx0_1 : ∀ i : grid0.Coords, EltTy.bits .f32 = 32 ∨ (Rect.block (s := S8192x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S8192x512.size a
  hwx0_2 : ∀ i : grid0.Coords, EltTy.bits .f32 = 32 ∨ (Rect.block (s := S8192x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S8192x512.size a
  hwx0_6 : ∀ i : grid0.Coords, EltTy.bits .f32 = 32 ∨ (Rect.block (s := S8192x512) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S8192x512.size a
  hwx0_7 : ∀ i : grid0.Coords, EltTy.bits .f32 = 32 ∨ (Rect.block (s := S8192x512) S512x512.size (cc0_transform_7 i) (hinb0_7 i)).WholeWords (EltTy.packing .f32)

variable [Facts₀]

def dot_S512x512_S512x2048_S512x2048_1_0_0_1_n_n : DotDims S512x512 S512x2048 S512x2048 where
  lhsContracting := [1]
  rhsContracting := [0]
  lhsNonContracting := [0]
  rhsNonContracting := [1]
  lhsBatch := []
  rhsBatch := []
  wf := dot_S512x512_S512x2048_S512x2048_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v7) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v8_0) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v8_1) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S8192x512 : Shape := ⟨2, ![8192, 512]⟩
abbrev S2048x512 : Shape := ⟨2, ![2048, 512]⟩
abbrev S2048 : Shape := ⟨1, ![2048]⟩
abbrev S8192x2048 : Shape := ⟨2, ![8192, 2048]⟩
abbrev S1x2048 : Shape := ⟨2, ![1, 2048]⟩
abbrev S_ : Shape := ⟨0, ![]⟩

abbrev nBuf : Space → Nat
  | .hbm => 56
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S2048x512, .f32⟩
  | .hbm, ⟨4, _⟩ => ⟨S2048x512, .f32⟩
  | .hbm, ⟨5, _⟩ => ⟨S2048, .f32⟩
  | .hbm, ⟨6, _⟩ => ⟨S2048, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S8192x2048, .f32⟩
  | .hbm, ⟨11, _⟩ => ⟨S1x2048, .f32⟩
  | .hbm, ⟨12, _⟩ => ⟨S8192x2048, .f32⟩
  | .hbm, ⟨13, _⟩ => ⟨S8192x2048, .f32⟩
  | .hbm, ⟨14, _⟩ => ⟨S2048x512, .f32⟩
  | .hbm, ⟨15, _⟩ => ⟨S2048x512, .f32⟩
  | .hbm, ⟨16, _⟩ => ⟨S2048x512, .f32⟩
  | .hbm, ⟨17, _⟩ => ⟨S8192x2048, .f32⟩
  | .hbm, ⟨18, _⟩ => ⟨S8192x2048, .f32⟩
  | .hbm, ⟨19, _⟩ => ⟨S1x2048, .f32⟩
  | .hbm, ⟨20, _⟩ => ⟨S8192x2048, .f32⟩
  | .hbm, ⟨21, _⟩ => ⟨S8192x2048, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192x512, .f32⟩
  | .hbm, ⟨30, _⟩ => ⟨S8192x512, .f32⟩
  | .hbm, ⟨31, _⟩ => ⟨S_, .f32⟩
  | .hbm, ⟨32, _⟩ => ⟨S8192x512, .f32⟩
  | .hbm, ⟨33, _⟩ => ⟨S8192x512, .f32⟩
  | .hbm, ⟨34, _⟩ => ⟨S8192x512, .f32⟩
  | .hbm, ⟨35, _⟩ => ⟨S8192x512, .f32⟩
  | .hbm, ⟨36, _⟩ => ⟨S8192x512, .f32⟩
  | .hbm, ⟨37, _⟩ => ⟨S_, .f32⟩
  | .hbm, ⟨38, _⟩ => ⟨S8192x512, .f32⟩
  | .hbm, ⟨39, _⟩ => ⟨S8192x512, .f32⟩
  | .hbm, ⟨40, _⟩ => ⟨S_, .f32⟩
  | .hbm, ⟨41, _⟩ => ⟨S8192x512, .f32⟩
  | .hbm, ⟨42, _⟩ => ⟨S8192x512, .f32⟩
  | .hbm, ⟨43, _⟩ => ⟨S8192x512, .f32⟩
  | .hbm, ⟨44, _⟩ => ⟨S8192x512, .f32⟩
  | .hbm, ⟨45, _⟩ => ⟨S8192x512, .f32⟩
  | .hbm, ⟨46, _⟩ => ⟨S8192x512, .f32⟩
  | .hbm, ⟨47, _⟩ => ⟨S8192x512, .f32⟩
  | .hbm, ⟨48, _⟩ => ⟨S_, .f32⟩
  | .hbm, ⟨49, _⟩ => ⟨S8192x512, .f32⟩
  | .hbm, ⟨50, _⟩ => ⟨S8192x512, .f32⟩
  | .hbm, ⟨51, _⟩ => ⟨S_, .f32⟩
  | .hbm, ⟨52, _⟩ => ⟨S8192x512, .f32⟩
  | .hbm, ⟨53, _⟩ => ⟨S8192x512, .f32⟩
  | .hbm, ⟨54, _⟩ => ⟨S8192x512, .f32⟩
  | .hbm, ⟨55, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst : Ref sig .tc := ⟨.hbm, 28, rfl⟩
abbrev main_v21 : Ref sig .tc := ⟨.hbm, 29, rfl⟩
abbrev main_v22 : Ref sig .tc := ⟨.hbm, 30, rfl⟩
abbrev main_cst_0 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_1 : Ref sig .tc := ⟨.hbm, 37, rfl⟩
abbrev main_v28 : Ref sig .tc := ⟨.hbm, 38, rfl⟩
abbrev main_v29 : Ref sig .tc := ⟨.hbm, 39, rfl⟩
abbrev main_cst_2 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_3 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]

class Facts₀ : Prop where
  bcast_S2048_S1x2048_1 : S2048.BroadcastsInDim S1x2048 (![1] : Fin 1 → Fin S1x2048.rank)
  bcast_S1x2048_S8192x2048_0_1 : S1x2048.BroadcastsInDim S8192x2048 (![0, 1] : Fin 2 → Fin S8192x2048.rank)
  slices_S8192x2048_S8192x512_0_0 : S8192x2048.Slices ![0, 0] S8192x512
  slices_S8192x2048_S8192x512_0_512 : S8192x2048.Slices ![0, 512] S8192x512
  slices_S8192x2048_S8192x512_0_1024 : S8192x2048.Slices ![0, 1024] S8192x512
  slices_S8192x2048_S8192x512_0_1536 : S8192x2048.Slices ![0, 1536] S8192x512
  bcast_S_S8192x512 : S_.BroadcastsInDim S8192x512 (![] : Fin 0 → Fin S8192x512.rank)
  dot_S8192x512_S2048x512_S8192x2048_1_1_0_0_n_n_wf : DotDims.WF S8192x512 S2048x512 S8192x2048 [1] [1] [0] [0] [] []

variable [Facts₀]

def dot_S8192x512_S2048x512_S8192x2048_1_1_0_0_n_n : DotDims S8192x512 S2048x512 S8192x2048 where
  lhsContracting := [1]
  rhsContracting := [1]
  lhsNonContracting := [0]
  rhsNonContracting := [0]
  lhsBatch := []
  rhsBatch := []
  wf := dot_S8192x512_S2048x512_S8192x2048_1_1_0_0_n_n_wf

class Facts : Prop extends Facts₀ where

variable [Facts]
-- ==== Proof.LibMatmulPlain.lean ====
/-
  Two general facts about matrix products at the ideal values.

  * A kernel's matrix product with the plain dimension numbers (rows by columns, one contracted axis, no batch axis)
    accumulated into the zero splat, read at entry (a, b), is the inner product of row `a` of the left factor with
    column `b` of the right one: `∑ c, A a c · B c b`.
  * On the extended reals a factor distributes over a sum of two NONNEGATIVE terms whatever the factor is (the two
    infinities of opposite sign cannot meet), so a weighted sum of such sums splits into the two weighted sums.
-/
import Idealize.ShloMosaic.Lib.StackMember
import Idealize.ShloMosaic.Lib.KernelVsHost
import Idealize.ShloMosaic.Lib.ValueIdx
import Idealize.ShloMosaic.PureOps.Ideal.Laws

noncomputable section

open scoped BigOperators

namespace Cert.LibMatmulPlain

open Idealize.ShloMosaic Idealize.ShloMosaic.ValueIdx

/-- A product with the plain dimension numbers accumulated into the zero splat, read at an entry: the inner product
    of a row of the left factor with a column of the right one. -/
theorem matmul_plain_zero_apply {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant (F := Ideal) ⟨2, ![m, n]⟩ .f32 0x00000000#32) (ix2 a b)
      = ∑ c : Fin k, A (ix2 a c) * B (ix2 c b) := by
  rw [matmul_zero_eq_dotGeneral]
  exact StackMember.dotGeneral_plain_apply prec A B a b

/-- A factor distributes over a sum of two nonnegative extended reals, so a weighted sum of such sums splits. -/
theorem sum_mul_add_of_nonneg {ι : Type} [Fintype ι] (w A B : ι → EReal) (hA : ∀ k, 0 ≤ A k) (hB : ∀ k, 0 ≤ B k) :
    ∑ k, w k * (A k + B k) = ∑ k, w k * A k + ∑ k, w k * B k := by
  rw [← Finset.sum_add_distrib]
  exact Finset.sum_congr rfl fun k _ => EReal.left_distrib_of_nonneg (hA k) (hB k)

end Cert.LibMatmulPlain

end
-- ==== Proof.KernelGate.lean ====
/-
  The kernel body's gate block, read entry by entry at the ideal values.

  At a grid point the body holds a 512-row block of `x` and of `h`, the two whole [512, 2048] sign matrices (already
  transposed: one COLUMN per gate column) and the [1, 2048] row of summed biases. Its gate block is
      x_blk · S_ih + h_blk · S_hh + (the bias row repeated down the rows),
  both products accumulated from zero, so at row `p` and gate column `g` it is
      Σ_k x_blk[p,k] · S_ih[k,g]  +  Σ_k h_blk[p,k] · S_hh[k,g]  +  bias[0,g].
  The narrowing of the blocks to bf16 is the identity on the extended reals, and the two shape casts are between equal
  shapes.
-/
import proofs.«119811_j33423435498265_2_alg».proof.Proof.Gen.KernelIdeal.Skeleton
import proofs.«119811_j33423435498265_2_alg».proof.Proof.LibMatmulPlain
import Idealize.ShloMosaic.Lib.Pipeline.Value
import Idealize.ShloMosaic.Lib.ValueIdx
import Idealize.ShloMosaic.PureOps.Ideal.Laws

noncomputable section

open scoped BigOperators

namespace Cert.KernelIdeal.CellBody

open Cert.KernelIdeal Cert.KernelIdeal.Gen Idealize.ShloMosaic Idealize.ShloMosaic.ValueIdx

/-- One product of the body: a [512, 512] block times a [512, 2048] matrix from the zero accumulator, at an entry. -/
theorem product_apply (A : FVec Ideal S512x512 .f32) (B : FVec Ideal S512x2048 .bf16) (p : Fin 512) (g : Fin 2048) :
    matmul dot_S512x512_S512x2048_S512x2048_1_0_0_1_n_n none (truncf .bf16 A bitsLt_bf16_f32)
        (shapeCast S512x2048 B shapeCasts_S512x2048_S512x2048) (constant (F := Ideal) S512x2048 .f32 0x00000000#32) (ix2 p g)
      = ∑ k : Fin 512, A (ix2 p k) * B (ix2 k g) := by
  rw [shapeCast_self]
  exact Cert.LibMatmulPlain.matmul_plain_zero_apply none (truncf .bf16 A bitsLt_bf16_f32) B p g

/-- The bias row repeated down the rows, at an entry. -/
theorem biasRows_apply (b : FVec Ideal S1x2048 .f32) (p : Fin 512) (g : Fin 2048) :
    broadcastTo S512x2048 (shapeCast S1x2048 b shapeCasts_S1x2048_S1x2048) broadcasts_S1x2048_S512x2048 (ix2 p g)
      = b (ix2 (0 : Fin 1) g) := by
  rw [shapeCast_self]
  exact broadcastTo_apply b broadcasts_S1x2048_S512x2048 (ix2 p g) (ix2 (0 : Fin 1) g) (fun a => match a with
    | ⟨0, _⟩ => by show 0 = if (1 : Nat) = 1 then 0 else _; rw [if_pos rfl]
    | ⟨1, _⟩ => by show g.val = if (2048 : Nat) = 1 then 0 else g.val; rw [if_neg (by decide)])

/-- Row `p`, gate column `g` of the gate block, from the blocks the body holds. -/
def gateEntry (X H : FVec Ideal S512x512 .f32) (Sih Shh : FVec Ideal S512x2048 .bf16) (b : FVec Ideal S1x2048 .f32)
    (p : Fin 512) (g : Fin 2048) : EReal :=
  ((∑ k : Fin 512, X (ix2 p k) * Sih (ix2 k g)) + (∑ k : Fin 512, H (ix2 p k) * Shh (ix2 k g))) + b (ix2 (0 : Fin 1) g)

/-- The body's gate block at row `p`, gate column `g`. -/
theorem gateBlock_apply (X H : FVec Ideal S512x512 .f32) (Sih Shh : FVec Ideal S512x2048 .bf16)
    (b : FVec Ideal S1x2048 .f32) (p : Fin 512) (g : Fin 2048) :
    k0_pay1 (F := Ideal) X H Sih Shh b (ix2 p g) = gateEntry X H Sih Shh b p g := by
  unfold k0_pay1 gateEntry
  rw [addf_apply, addf_apply, product_apply, product_apply, biasRows_apply]

end Cert.KernelIdeal.CellBody

end
-- ==== Proof.CellSpec.lean ====
/-
  The binarized-weight LSTM cell as ONE function of its seven argument arrays, entry by entry, on the extended reals.

  With rows `r < 8192`, columns `c < 512` and gate columns `g < 2048`, the pre-activation of gate column `g` in row `r` is
      gate r g = Σ_k x[r,k] · sign W_ih[g,k]  +  Σ_k h[r,k] · sign W_hh[g,k]  +  (b_ih[g] + b_hh[g]),
  the four gates are the column blocks `c`, `c + 512`, `c + 1024`, `c + 1536` (input, forget, cell, output), and
      c'[r,c] = σ(gate r (c+512)) · c[r,c] + σ(gate r c) · tanh (gate r (c+1024)),
      h'[r,c] = σ(gate r (c+1536)) · tanh c'[r,c],
  with σ x = 1 / (1 + e^(-x)).

  Beside the definition, the three laws that join the two programs:
  * a FINITE weight plus (its sign minus itself) is its sign — false at the infinities, where `w - w` is not `0`;
  * the quotient `1 / (1 + e^(-z))` is σ z (by definition of σ on the extended reals);
  * the four summands of a gate, added in the order ((A + b) + B) + b', are (A + B) + (b + b') — addition on the
    extended reals is commutative and associative, so this needs no finiteness.
-/
import Idealize.ShloMosaic.PureOps.Ideal
import Idealize.ShloMosaic.PureOps.Ideal.Laws
import Idealize.ShloMosaic.Lib.ValueIdx
import Idealize.ShloMosaic.Lib.IdealHost

noncomputable section

open scoped BigOperators

namespace Cert.Cell

open Idealize.ShloMosaic Idealize.ShloMosaic.ValueIdx

/-- The batch-by-feature arrays `x`, `h`, `c` and the two results. -/
abbrev SRows : Shape := ⟨2, ![8192, 512]⟩
/-- The two weight matrices, one row per gate column. -/
abbrev SWts : Shape := ⟨2, ![2048, 512]⟩
/-- The two bias vectors. -/
abbrev SBias : Shape := ⟨1, ![2048]⟩

/-- Gate column `c + off` of the `off / 512`-th gate. -/
abbrev gcol (off : Nat) (hoff : off + 512 ≤ 2048) (c : Fin 512) : Fin 2048 := ⟨c.val + off, by have := c.isLt; omega⟩

section
variable (x hx cx : SRows.Idx → EReal) (wi wh : SWts.Idx → EReal) (bi bh : SBias.Idx → EReal)

/-- The pre-activation of gate column `g` in row `r`. -/
def gate (r : Fin 8192) (g : Fin 2048) : EReal :=
  ((∑ k : Fin 512, x (ix2 r k) * Ideal.sign (wi (ix2 g k))) + (∑ k : Fin 512, hx (ix2 r k) * Ideal.sign (wh (ix2 g k))))
    + (bi (ix1 g) + bh (ix1 g))

/-- The new cell state. -/
def cellNext (i : SRows.Idx) : EReal :=
  Ideal.logistic (gate x hx wi wh bi bh (i 0) (gcol 512 (by omega) (i 1))) * cx i
    + Ideal.logistic (gate x hx wi wh bi bh (i 0) (gcol 0 (by omega) (i 1)))
      * Ideal.tanh (gate x hx wi wh bi bh (i 0) (gcol 1024 (by omega) (i 1)))

/-- The new hidden state. -/
def hidNext (i : SRows.Idx) : EReal :=
  Ideal.logistic (gate x hx wi wh bi bh (i 0) (gcol 1536 (by omega) (i 1))) * Ideal.tanh (cellNext x hx cx wi wh bi bh i)

end

/-! ## The three laws -/

/-- A finite weight plus (its sign minus itself) is its sign. -/
theorem add_sign_sub_self (w : EReal) (hw : ∃ r : ℝ, w = (r : EReal)) : w + (Ideal.sign w - w) = Ideal.sign w := by
  obtain ⟨r, rfl⟩ := hw
  show (r : EReal) + (((SignType.sign r : ℝ) : EReal) - (r : EReal)) = ((SignType.sign r : ℝ) : EReal)
  rw [← EReal.coe_sub, ← EReal.coe_add]
  congr 1
  ring

/-- The quotient the reference spells is the logistic function. -/
theorem one_div_one_add_exp_neg (z : EReal) : Ideal.div 1 (1 + Ideal.exp (-z)) = Ideal.logistic z := rfl

/-- The reference's order of adding a gate's four summands against the kernel's. -/
theorem add_regroup (A B b b' : EReal) : ((A + b) + B) + b' = (A + B) + (b + b') := by
  rw [add_right_comm A b B, add_assoc]

end Cert.Cell

end
-- ==== Proof.KernelBlock.lean ====
/-
  The two output blocks of the body, entry by entry.

  The body cuts its gate block into the four column blocks c, c + 512, c + 1024, c + 1536 (input, forget, cell, output
  gates) and forms, with the block of the old cell state,
      cell[p,q] = σ(G[p,q+512]) · c_blk[p,q] + σ(G[p,q]) · tanh G[p,q+1024],    hid[p,q] = σ(G[p,q+1536]) · tanh cell[p,q].
  The generated value leg already states each output block as one function of the body's loads with the slices read;
  here those functions are read at an entry (p, q) with the gate block's entries as sums.
-/
import proofs.«119811_j33423435498265_2_alg».proof.Proof.Gen.KernelIdeal.Value
import proofs.«119811_j33423435498265_2_alg».proof.Proof.KernelGate
import proofs.«119811_j33423435498265_2_alg».proof.Proof.CellSpec

noncomputable section

open scoped BigOperators

namespace Cert.KernelIdeal.CellBlock

open Cert.KernelIdeal Cert.KernelIdeal.Gen Cert.KernelIdeal.CellBody Cert.Cell Idealize.ShloMosaic Idealize.ShloMosaic.ValueIdx

variable (X H Cx : FVec Ideal S512x512 .f32) (Sih Shh : FVec Ideal S512x2048 .bf16) (b : FVec Ideal S1x2048 .f32)

/-- Entry (p, q) of the new cell state's block. -/
def cellEntry (p q : Fin 512) : EReal :=
  Ideal.logistic (gateEntry X H Sih Shh b p (gcol 512 (by omega) q)) * Cx (ix2 p q)
    + Ideal.logistic (gateEntry X H Sih Shh b p (gcol 0 (by omega) q))
      * Ideal.tanh (gateEntry X H Sih Shh b p (gcol 1024 (by omega) q))

/-- Entry (p, q) of the new hidden state's block. -/
def hidEntry (p q : Fin 512) : EReal :=
  Ideal.logistic (gateEntry X H Sih Shh b p (gcol 1536 (by omega) q)) * Ideal.tanh (cellEntry X H Cx Sih Shh b p q)

/-- The block the body leaves in the cell-state window, at an entry. -/
theorem cellBlock_apply (p q : Fin 512) :
    Value.E7 (F := Ideal) X H Sih Shh b Cx (ix2 p q) = cellEntry X H Cx Sih Shh b p q := by
  have i0 : Value.ix7_0 (ix2 p q) = ix2 p (gcol 512 (by omega) q) := funext fun a => Fin.ext (by
    match a with | ⟨0, _⟩ => rfl | ⟨1, _⟩ => rfl)
  have i1 : Value.ix7_1 (ix2 p q) = ix2 p q := funext fun a => Fin.ext (by
    match a with | ⟨0, _⟩ => rfl | ⟨1, _⟩ => rfl)
  have i2 : Value.ix7_2 (ix2 p q) = ix2 p (gcol 0 (by omega) q) := funext fun a => Fin.ext (by
    match a with | ⟨0, _⟩ => rfl | ⟨1, _⟩ => rfl)
  have i3 : Value.ix7_3 (ix2 p q) = ix2 p (gcol 1024 (by omega) q) := funext fun a => Fin.ext (by
    match a with | ⟨0, _⟩ => rfl | ⟨1, _⟩ => rfl)
  simp only [Value.E7, i0, i1, i2, i3, gateBlock_apply]
  rfl

/-- The block the body leaves in the hidden-state window, at an entry. -/
theorem hidBlock_apply (p q : Fin 512) :
    Value.E6 (F := Ideal) X H Sih Shh b Cx (ix2 p q) = hidEntry X H Cx Sih Shh b p q := by
  have i0 : Value.ix6_0 (ix2 p q) = ix2 p (gcol 1536 (by omega) q) := funext fun a => Fin.ext (by
    match a with | ⟨0, _⟩ => rfl | ⟨1, _⟩ => rfl)
  have i1 : Value.ix6_1 (ix2 p q) = ix2 p (gcol 512 (by omega) q) := funext fun a => Fin.ext (by
    match a with | ⟨0, _⟩ => rfl | ⟨1, _⟩ => rfl)
  have i2 : Value.ix6_2 (ix2 p q) = ix2 p q := funext fun a => Fin.ext (by
    match a with | ⟨0, _⟩ => rfl | ⟨1, _⟩ => rfl)
  have i3 : Value.ix6_3 (ix2 p q) = ix2 p (gcol 0 (by omega) q) := funext fun a => Fin.ext (by
    match a with | ⟨0, _⟩ => rfl | ⟨1, _⟩ => rfl)
  have i4 : Value.ix6_4 (ix2 p q) = ix2 p (gcol 1024 (by omega) q) := funext fun a => Fin.ext (by
    match a with | ⟨0, _⟩ => rfl | ⟨1, _⟩ => rfl)
  simp only [Value.E6, i0, i1, i2, i3, i4, gateBlock_apply]
  rfl

end Cert.KernelIdeal.CellBlock

end
-- ==== Proof.KernelHost.lean ====
/-
  What the region finds in the three arrays the host computes before it.

  * The two [512, 2048] matrices are the signs of the weight matrices, narrowed (the identity on the extended reals) and
    transposed: entry (k, g) is `sign W[g, k]`.
  * The [1, 2048] row is the sum of the two bias vectors, reshaped: entry (0, g) is `b_ih[g] + b_hh[g]`.
-/
import proofs.«119811_j33423435498265_2_alg».proof.Proof.Gen.KernelIdeal.Frame
import proofs.«119811_j33423435498265_2_alg».proof.Proof.CellSpec
import Idealize.ShloMosaic.Lib.ValueLayout
import Idealize.ShloMosaic.Lib.ValueIdx
import Idealize.ShloMosaic.Lib.Pipeline.Value
import Idealize.ShloMosaic.Lib.StableHlo.Run
import Idealize.ShloMosaic.PureOps.Ideal.Laws

noncomputable section

namespace Cert.KernelIdeal.CellHost

open Cert.KernelIdeal Cert.KernelIdeal.Gen Idealize.ShloMosaic Idealize.ShloMosaic.TcCoe Idealize.ShloMosaic.ValueIdx
open Idealize.SL.Sem Idealize.ShloMosaic.StableHlo

variable (m : (ℓ : Loc nD τ sig) → Buf (Elt Ideal) ℓ)

/-! The seven argument arrays on core `c`, as functions into the extended reals. -/
abbrev argX (c : Dev nD) : Cert.Cell.SRows.Idx → EReal := m ((c : Thread nD τ).loc main_arg0)
abbrev argH (c : Dev nD) : Cert.Cell.SRows.Idx → EReal := m ((c : Thread nD τ).loc main_arg1)
abbrev argC (c : Dev nD) : Cert.Cell.SRows.Idx → EReal := m ((c : Thread nD τ).loc main_arg2)
abbrev argWih (c : Dev nD) : Cert.Cell.SWts.Idx → EReal := m ((c : Thread nD τ).loc main_arg3)
abbrev argWhh (c : Dev nD) : Cert.Cell.SWts.Idx → EReal := m ((c : Thread nD τ).loc main_arg4)
abbrev argBih (c : Dev nD) : Cert.Cell.SBias.Idx → EReal := m ((c : Thread nD τ).loc main_arg5)
abbrev argBhh (c : Dev nD) : Cert.Cell.SBias.Idx → EReal := m ((c : Thread nD τ).loc main_arg6)

/-- The transposed sign matrix of `W_ih`, as the region finds it. -/
theorem signT_ih (c : Dev nD) (k : Fin 512) (g : Fin 2048) :
    (V m c main_v2 : S512x2048.Idx → EReal) (ix2 k g) = Ideal.sign (argWih m c (ix2 g k)) := by
  have e : (V m c main_v2 : S512x2048.Idx → EReal)
      = transpose S512x2048 [1, 0] (truncf .bf16 (Host.sign (F := Ideal) (m ((c : Thread nD τ).loc main_arg3))) bitsLt_bf16_f32)
          transposes_S2048x512_S512x2048_1_0 := by
    dsimp only [Gen.V, Gen.hostOps0]; after_results
  rw [e, transpose_ix2_apply]
  rfl

/-- The transposed sign matrix of `W_hh`, as the region finds it. -/
theorem signT_hh (c : Dev nD) (k : Fin 512) (g : Fin 2048) :
    (V m c main_v5 : S512x2048.Idx → EReal) (ix2 k g) = Ideal.sign (argWhh m c (ix2 g k)) := by
  have e : (V m c main_v5 : S512x2048.Idx → EReal)
      = transpose S512x2048 [1, 0] (truncf .bf16 (Host.sign (F := Ideal) (m ((c : Thread nD τ).loc main_arg4))) bitsLt_bf16_f32)
          transposes_S2048x512_S512x2048_1_0 := by
    dsimp only [Gen.V, Gen.hostOps0]; after_results
  rw [e, transpose_ix2_apply]
  rfl

/-- The row of summed biases, as the region finds it. -/
theorem biasRow (c : Dev nD) (g : Fin 2048) :
    (V m c main_v7 : S1x2048.Idx → EReal) (ix2 (0 : Fin 1) g)
      = argBih m c (ix1 g) + argBhh m c (ix1 g) := by
  have e : (V m c main_v7 : S1x2048.Idx → EReal)
      = shapeCast S1x2048 (addf (F := Ideal) (s := S2048) (φ := .f32) (m ((c : Thread nD τ).loc main_arg5)) (m ((c : Thread nD τ).loc main_arg6)))
          shapeCasts_S2048_S1x2048 := by
    dsimp only [Gen.V, Gen.hostOps0]; after_results; rfl
  rw [e]
  refine (shapeCast_apply _ shapeCasts_S2048_S1x2048 (ix2 (0 : Fin 1) g) (ix1 g) ?_).trans rfl
  rw [Shape.rowMajor_val_one, Shape.rowMajor_val_two]
  show g.val = 0 * 2048 + g.val
  omega

end Cert.KernelIdeal.CellHost

end
-- ==== Proof.KernelCell.lean ====
/-
  The kernel's two result arrays, after its run, are the specification's `hidNext` and `cellNext` of the argument
  arrays.

  The grid has 16 points; point `t` holds rows 512·t … 512·t + 511 of `x`, `h`, `c` and of both results, the two whole
  transposed sign matrices and the whole bias row. So row `p` of the blocks at point `t` is row 512·t + p of the arrays:
  the gate block's entry (p, g) is the specification's gate at (512·t + p, g), hence the two blocks the body leaves are
  the specification's two functions read through the point's block. The 16 blocks tile each [8192, 512] result
  (row `r` lies in the block of point r / 512), so each result array IS that function.
-/
import proofs.«119811_j33423435498265_2_alg».proof.Proof.Gen.KernelIdeal.Value
import proofs.«119811_j33423435498265_2_alg».proof.Proof.KernelBlock
import proofs.«119811_j33423435498265_2_alg».proof.Proof.KernelHost
import proofs.«119811_j33423435498265_2_alg».proof.Proof.CellSpec
import Idealize.ShloMosaic.Lib.Pipeline.Value

noncomputable section

open scoped BigOperators

namespace Cert.KernelIdeal.CellValue

open Cert.KernelIdeal Cert.KernelIdeal.Gen Cert.KernelIdeal.CellBody Cert.KernelIdeal.CellBlock Cert.KernelIdeal.CellHost Cert.Cell
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem zeroOffsets : (![0, 0] : Fin 2 → Nat) = fun _ => 0 := funext fun a => by fin_cases a <;> rfl

/-- The printed index maps over the 16 grid points: the row-tiled windows sit at block row `t`, the resident ones at
    block (0, 0). -/
theorem blockIndex : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

/-- Row `p` of the blocks at point `t`, as a row of the arrays. -/
def row (t : Fin cfg0.N) (p : Fin 512) : Fin 8192 := ⟨t.val * 512 + p.val, by
  have h : t.val < grid0.N := t.isLt
  rw [N_0] at h
  have := p.isLt
  omega⟩

/-! ## The blocks at a point, entry by entry -/

theorem xBlock_apply (c : Dev nD) (t : Fin cfg0.N) (p k : Fin 512) :
    iblk m c 0 t (ix2 p k) = argX m c (ix2 (row t p) k) := by
  show V m c main_arg0 (((cfg0.win 0).blk t).view.emb (ix2 p k)) = _
  rw [V_main_arg0]
  refine congrArg (m ((c : Thread nD τ).loc main_arg0)) ?_
  obtain ⟨e0, e1, -⟩ := blockIndex t
  funext a; apply Fin.ext
  match a with
  | ⟨0, _⟩ => show win0_0.index t (0 : Fin 2) * 512 + 1 * p.val = t.val * 512 + p.val; rw [e0]; omega
  | ⟨1, _⟩ => show win0_0.index t (1 : Fin 2) * 512 + 1 * k.val = k.val; rw [e1]; omega

theorem hBlock_apply (c : Dev nD) (t : Fin cfg0.N) (p k : Fin 512) :
    iblk m c 1 t (ix2 p k) = argH m c (ix2 (row t p) k) := by
  show V m c main_arg1 (((cfg0.win 1).blk t).view.emb (ix2 p k)) = _
  rw [V_main_arg1]
  refine congrArg (m ((c : Thread nD τ).loc main_arg1)) ?_
  obtain ⟨-, -, e0, e1, -⟩ := blockIndex t
  funext a; apply Fin.ext
  match a with
  | ⟨0, _⟩ => show win0_1.index t (0 : Fin 2) * 512 + 1 * p.val = t.val * 512 + p.val; rw [e0]; omega
  | ⟨1, _⟩ => show win0_1.index t (1 : Fin 2) * 512 + 1 * k.val = k.val; rw [e1]; omega

theorem cBlock_apply (c : Dev nD) (t : Fin cfg0.N) (p q : Fin 512) :
    iblk m c 2 t (ix2 p q) = argC m c (ix2 (row t p) q) := by
  show V m c main_arg2 (((cfg0.win 2).blk t).view.emb (ix2 p q)) = _
  rw [V_main_arg2]
  refine congrArg (m ((c : Thread nD τ).loc main_arg2)) ?_
  obtain ⟨-, -, -, -, e0, e1, -⟩ := blockIndex t
  funext a; apply Fin.ext
  match a with
  | ⟨0, _⟩ => show win0_2.index t (0 : Fin 2) * 512 + 1 * p.val = t.val * 512 + p.val; rw [e0]; omega
  | ⟨1, _⟩ => show win0_2.index t (1 : Fin 2) * 512 + 1 * q.val = q.val; rw [e1]; omega

theorem sihBlock_apply (c : Dev nD) (t : Fin cfg0.N) (k : Fin 512) (g : Fin 2048) :
    iblk m c 3 t (ix2 k g) = Ideal.sign (argWih m c (ix2 g k)) := by
  show V m c main_v2 (((cfg0.win 3).blk t).view.emb (ix2 k g)) = _
  have he : ((cfg0.win 3).blk t).view.emb (ix2 k g) = ix2 k g := by
    obtain ⟨-, -, -, -, -, -, e0, e1, -⟩ := blockIndex t
    funext a; apply Fin.ext
    match a with
    | ⟨0, _⟩ => show win0_3.index t (0 : Fin 2) * 512 + 1 * k.val = k.val; rw [e0]; omega
    | ⟨1, _⟩ => show win0_3.index t (1 : Fin 2) * 2048 + 1 * g.val = g.val; rw [e1]; omega
  rw [he]
  exact signT_ih m c k g

theorem shhBlock_apply (c : Dev nD) (t : Fin cfg0.N) (k : Fin 512) (g : Fin 2048) :
    iblk m c 4 t (ix2 k g) = Ideal.sign (argWhh m c (ix2 g k)) := by
  show V m c main_v5 (((cfg0.win 4).blk t).view.emb (ix2 k g)) = _
  have he : ((cfg0.win 4).blk t).view.emb (ix2 k g) = ix2 k g := by
    obtain ⟨-, -, -, -, -, -, -, -, e0, e1, -⟩ := blockIndex t
    funext a; apply Fin.ext
    match a with
    | ⟨0, _⟩ => show win0_4.index t (0 : Fin 2) * 512 + 1 * k.val = k.val; rw [e0]; omega
    | ⟨1, _⟩ => show win0_4.index t (1 : Fin 2) * 2048 + 1 * g.val = g.val; rw [e1]; omega
  rw [he]
  exact signT_hh m c k g

theorem biasBlock_apply (c : Dev nD) (t : Fin cfg0.N) (g : Fin 2048) :
    iblk m c 5 t (ix2 (0 : Fin 1) g) = argBih m c (ix1 g) + argBhh m c (ix1 g) := by
  show V m c main_v7 (((cfg0.win 5).blk t).view.emb (ix2 (0 : Fin 1) g)) = _
  have he : ((cfg0.win 5).blk t).view.emb (ix2 (0 : Fin 1) g) = ix2 (0 : Fin 1) g := by
    obtain ⟨-, -, -, -, -, -, -, -, -, -, e0, e1, -⟩ := blockIndex t
    funext a; apply Fin.ext
    match a with
    | ⟨0, _⟩ => show win0_5.index t (0 : Fin 2) * 1 + 1 * 0 = 0; rw [e0]
    | ⟨1, _⟩ => show win0_5.index t (1 : Fin 2) * 2048 + 1 * g.val = g.val; rw [e1]; omega
  rw [he]
  exact biasRow m c g

/-! ## The body's blocks at a point are the specification at the point's rows -/

theorem gate_point (c : Dev nD) (t : Fin cfg0.N) (p : Fin 512) (g : Fin 2048) :
    gateEntry (iblk m c 0 t) (iblk m c 1 t) (iblk m c 3 t) (iblk m c 4 t) (iblk m c 5 t) p g = gate (argX m c) (argH m c) (argWih m c) (argWhh m c) (argBih m c) (argBhh m c) (row t p) g := by
  unfold gateEntry gate
  simp only [xBlock_apply, hBlock_apply, sihBlock_apply, shhBlock_apply, biasBlock_apply]

theorem cell_point (c : Dev nD) (t : Fin cfg0.N) (p q : Fin 512) :
    cellEntry (iblk m c 0 t) (iblk m c 1 t) (iblk m c 2 t) (iblk m c 3 t) (iblk m c 4 t) (iblk m c 5 t) p q = cellNext (argX m c) (argH m c) (argC m c) (argWih m c) (argWhh m c) (argBih m c) (argBhh m c) (ix2 (row t p) q) := by
  unfold cellEntry cellNext
  rw [gate_point, gate_point, gate_point, cBlock_apply]

theorem hid_point (c : Dev nD) (t : Fin cfg0.N) (p q : Fin 512) :
    hidEntry (iblk m c 0 t) (iblk m c 1 t) (iblk m c 2 t) (iblk m c 3 t) (iblk m c 4 t) (iblk m c 5 t) p q = hidNext (argX m c) (argH m c) (argC m c) (argWih m c) (argWhh m c) (argBih m c) (argBhh m c) (ix2 (row t p) q) := by
  unfold hidEntry hidNext
  rw [gate_point, cell_point]

/-! ## What each point writes back -/

/-- Entry (p, q) of the result blocks at point `t` sits at row 512·t + p, column q of the result arrays. -/
theorem outEmb7 (t : Fin cfg0.N) (p q : Fin 512) : ((cfg0.win 7).blk t).view.emb (ix2 p q) = ix2 (row t p) q := by
  obtain ⟨-, -, -, -, -, -, -, -, -, -, -, -, -, -, e0, e1⟩ := blockIndex t
  funext a; apply Fin.ext
  match a with
  | ⟨0, _⟩ => show win0_7.index t (0 : Fin 2) * 512 + 1 * p.val = t.val * 512 + p.val; rw [e0]; omega
  | ⟨1, _⟩ => show win0_7.index t (1 : Fin 2) * 512 + 1 * q.val = q.val; rw [e1]; omega

theorem outEmb6 (t : Fin cfg0.N) (p q : Fin 512) : ((cfg0.win 6).blk t).view.emb (ix2 p q) = ix2 (row t p) q := by
  obtain ⟨-, -, -, -, -, -, -, -, -, -, -, -, e0, e1, -⟩ := blockIndex t
  funext a; apply Fin.ext
  match a with
  | ⟨0, _⟩ => show win0_6.index t (0 : Fin 2) * 512 + 1 * p.val = t.val * 512 + p.val; rw [e0]; omega
  | ⟨1, _⟩ => show win0_6.index t (1 : Fin 2) * 512 + 1 * q.val = q.val; rw [e1]; omega

/-- Point `t` writes back block `t` of the new cell state. -/
theorem flushedCell (c : Dev nD) (t : Fin cfg0.N) :
    (dats m 0 c).flushed 7 t = ((cfg0.win 7).blk t).view.read (Elt Ideal) (cellNext (argX m c) (argH m c) (argC m c) (argWih m c) (argWhh m c) (argBih m c) (argBhh m c)) := by
  rw [Value.flushed7]
  unfold out0_7
  simp only [View.ld_unit_zero (S := S512x512) zeroOffsets, View.ld_unit_zero (S := S512x2048) zeroOffsets,
    View.ld_unit_zero (S := S1x2048) zeroOffsets]
  funext y
  show View.canon [(⟨r0_0, k0_pay2 (iblk m c 0 t) (iblk m c 1 t) (iblk m c 2 t) (iblk m c 3 t) (iblk m c 4 t) (iblk m c 5 t)⟩ : View.Piece (Elt Ideal) S512x512 .f32)] y = cellNext (argX m c) (argH m c) (argC m c) (argWih m c) (argWhh m c) (argBih m c) (argBhh m c) (((cfg0.win 7).blk t).view.emb y)
  refine (Value.canon7_eq (iblk m c 0 t) (iblk m c 1 t) (iblk m c 3 t) (iblk m c 4 t) (iblk m c 5 t) (iblk m c 2 t) y).trans ?_
  obtain ⟨p, q, rfl⟩ : ∃ (p q : Fin 512), y = ix2 p q := ⟨y 0, y 1, eq_ix2 y⟩
  refine (cellBlock_apply (iblk m c 0 t) (iblk m c 1 t) (iblk m c 2 t) (iblk m c 3 t) (iblk m c 4 t) (iblk m c 5 t) p q).trans ?_
  rw [outEmb7]
  exact cell_point m c t p q

/-- Point `t` writes back block `t` of the new hidden state. -/
theorem flushedHid (c : Dev nD) (t : Fin cfg0.N) :
    (dats m 0 c).flushed 6 t = ((cfg0.win 6).blk t).view.read (Elt Ideal) (hidNext (argX m c) (argH m c) (argC m c) (argWih m c) (argWhh m c) (argBih m c) (argBhh m c)) := by
  rw [Value.flushed6]
  unfold out0_6
  simp only [View.ld_unit_zero (S := S512x512) zeroOffsets, View.ld_unit_zero (S := S512x2048) zeroOffsets,
    View.ld_unit_zero (S := S1x2048) zeroOffsets]
  funext y
  show View.canon [(⟨r0_0, k0_pay3 (iblk m c 0 t) (iblk m c 1 t) (iblk m c 2 t) (iblk m c 3 t) (iblk m c 4 t) (iblk m c 5 t)⟩ : View.Piece (Elt Ideal) S512x512 .f32)] y = hidNext (argX m c) (argH m c) (argC m c) (argWih m c) (argWhh m c) (argBih m c) (argBhh m c) (((cfg0.win 6).blk t).view.emb y)
  refine (Value.canon6_eq (iblk m c 0 t) (iblk m c 1 t) (iblk m c 3 t) (iblk m c 4 t) (iblk m c 5 t) (iblk m c 2 t) y).trans ?_
  obtain ⟨p, q, rfl⟩ : ∃ (p q : Fin 512), y = ix2 p q := ⟨y 0, y 1, eq_ix2 y⟩
  refine (hidBlock_apply (iblk m c 0 t) (iblk m c 1 t) (iblk m c 2 t) (iblk m c 3 t) (iblk m c 4 t) (iblk m c 5 t) p q).trans ?_
  rw [outEmb6]
  exact hid_point m c t p q

/-! ## The blocks tile the result arrays -/

theorem mem_blk7 (t : Fin cfg0.N) (i : S8192x512.Idx) :
    i ∈ ((cfg0.win 7).blk t).view.set ↔ ∀ a : Fin 2, win0_7.index t a * S512x512.size a ≤ (i a).val
      ∧ (i a).val < win0_7.index t a * S512x512.size a + S512x512.size a := by
  show i ∈ ((View.whole main_v8_1).slice (win0_7.rect t)).set ↔ _
  rw [View.set_slice_whole, Rect.mem_set_unit]
  exact Iff.rfl

theorem mem_blk6 (t : Fin cfg0.N) (i : S8192x512.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v8_0).slice (win0_6.rect t)).set ↔ _
  rw [View.set_slice_whole, Rect.mem_set_unit]
  exact Iff.rfl

/-- The point whose block holds row `r`: r / 512. -/
theorem pointOfRow (i : S8192x512.Idx) : ∃ t : Fin cfg0.N, t.val = (i 0).val / 512 := by
  have hi0 : (i 0).val < 8192 := (i 0).isLt
  exact ⟨⟨(i 0).val / 512, by show (i 0).val / 512 < grid0.N; rw [N_0]; omega⟩, rfl⟩

theorem coverCell (i : S8192x512.Idx) :
    ∃ t : Fin cfg0.N, (cfg0.win 7).flush t = true ∧ i ∈ ((cfg0.win 7).blk t).view.set := by
  have hi1 : (i 1).val < 512 := (i 1).isLt
  obtain ⟨t, ht⟩ := pointOfRow i
  obtain ⟨-, -, -, -, -, -, -, -, -, -, -, -, -, -, e0, e1⟩ := blockIndex t
  refine ⟨t, flush0_7 t, ?_⟩
  rw [mem_blk7]
  intro a
  match a with
  | ⟨0, _⟩ =>
    show win0_7.index t (0 : Fin 2) * 512 ≤ (i 0).val ∧ (i 0).val < win0_7.index t (0 : Fin 2) * 512 + 512
    rw [e0, ht]; omega
  | ⟨1, _⟩ =>
    show win0_7.index t (1 : Fin 2) * 512 ≤ (i 1).val ∧ (i 1).val < win0_7.index t (1 : Fin 2) * 512 + 512
    rw [e1]; omega

theorem coverHid (i : S8192x512.Idx) :
    ∃ t : Fin cfg0.N, (cfg0.win 6).flush t = true ∧ i ∈ ((cfg0.win 6).blk t).view.set := by
  have hi1 : (i 1).val < 512 := (i 1).isLt
  obtain ⟨t, ht⟩ := pointOfRow i
  obtain ⟨-, -, -, -, -, -, -, -, -, -, -, -, e0, e1, -⟩ := blockIndex t
  refine ⟨t, flush0_6 t, ?_⟩
  rw [mem_blk6]
  intro a
  match a with
  | ⟨0, _⟩ =>
    show win0_6.index t (0 : Fin 2) * 512 ≤ (i 0).val ∧ (i 0).val < win0_6.index t (0 : Fin 2) * 512 + 512
    rw [e0, ht]; omega
  | ⟨1, _⟩ =>
    show win0_6.index t (1 : Fin 2) * 512 ≤ (i 1).val ∧ (i 1).val < win0_6.index t (1 : Fin 2) * 512 + 512
    rw [e1]; omega

/-! ## The result arrays, and the run -/

theorem finalCell (c : Dev nD) : (dats m 0 c).arrAt 7 cfg0.N = cellNext (argX m c) (argH m c) (argC m c) (argWih m c) (argWhh m c) (argBih m c) (argBhh m c) :=
  (dats m 0 c).arrAt_eq_of_cover 7 (cellNext (argX m c) (argH m c) (argC m c) (argWih m c) (argWhh m c) (argBih m c) (argBhh m c)) (fun t _ => flushedCell m c t) coverCell

theorem finalHid (c : Dev nD) : (dats m 0 c).arrAt 6 cfg0.N = hidNext (argX m c) (argH m c) (argC m c) (argWih m c) (argWhh m c) (argBih m c) (argBhh m c) :=
  (dats m 0 c).arrAt_eq_of_cover 6 (hidNext (argX m c) (argH m c) (argC m c) (argWih m c) (argWhh m c) (argBih m c) (argBhh m c)) (fun t _ => flushedHid m c t) coverHid

/-- The kernel's run: both results at the specification of the argument arrays, the arguments unchanged. -/
theorem run : θ_run defs (onTc (τ := τ) (main (F := Ideal))) ⟨m, fun _ => 0, ρ⟩ fun r => ∀ c : Dev nD,
      r.2.mem ((c : Thread nD τ).loc main_v8_0) = hidNext (argX m c) (argH m c) (argC m c) (argWih m c) (argWhh m c) (argBih m c) (argBhh m c)
      ∧ r.2.mem ((c : Thread nD τ).loc main_v8_1) = cellNext (argX m c) (argH m c) (argC m c) (argWih m c) (argWhh m c) (argBih m c) (argBhh m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (finalHid m c), (h c).2.1.trans (finalCell m c), (h c).2.2⟩)
    (Value.run_blocks m ρ)

end Cert.KernelIdeal.CellValue

end
-- ==== Proof.RefCell.lean ====
/-
  The reference's two results, read entry by entry, are the specification's `hidNext` and `cellNext`.

  The reference forms each gate column as ((x·B(W_ih) + b_ih) + h·B(W_hh)) + b_hh with B(w) = w + (sign w - w), and spells the
  logistic function as the quotient 1 / (1 + e^(-z)). For FINITE weights B(w) = sign w, the four summands regroup by
  commutativity and associativity of addition, and the quotient is the logistic function by definition; the slices
  pick the gate columns c, c + 512, c + 1024, c + 1536.
-/
import proofs.«119811_j33423435498265_2_alg».proof.Proof.Gen.ReferenceIdeal.Read
import proofs.«119811_j33423435498265_2_alg».proof.Proof.CellSpec

noncomputable section

open scoped BigOperators

namespace Cert.ReferenceIdeal.RefCell

open Cert.ReferenceIdeal Cert.ReferenceIdeal.Read Idealize.ShloMosaic Idealize.ShloMosaic.ValueIdx

variable (x0 x1 x2 : (⟨S8192x512, .f32⟩ : BufTy).Contents (Elt Ideal))
variable (x3 x4 : (⟨S2048x512, .f32⟩ : BufTy).Contents (Elt Ideal))
variable (x5 x6 : (⟨S2048, .f32⟩ : BufTy).Contents (Elt Ideal))

/-- The reference's gate array at row `r`, gate column `g`, for finite weights. -/
theorem gates_eq (hw3 : ∀ j, ∃ r : ℝ, x3 j = (r : EReal)) (hw4 : ∀ j, ∃ r : ℝ, x4 j = (r : EReal))
    (r : Fin 8192) (g : Fin 2048) :
    val_main_v14 (F := Ideal) x0 x1 x3 x4 x5 x6 (ix2 r g) = Cert.Cell.gate x0 x1 x3 x4 x5 x6 r g := by
  have el3 : ∀ k, lidx_main_v3 (ix2 r g) k = ix2 r k := fun k => funext fun a => Fin.ext (by
    match a with | ⟨0, _⟩ => rfl | ⟨1, _⟩ => rfl)
  have er3 : ∀ k, ridx_main_v3 (ix2 r g) k = ix2 g k := fun k => funext fun a => Fin.ext (by
    match a with | ⟨0, _⟩ => rfl | ⟨1, _⟩ => rfl)
  have el10 : ∀ k, lidx_main_v10 (ix2 r g) k = ix2 r k := fun k => funext fun a => Fin.ext (by
    match a with | ⟨0, _⟩ => rfl | ⟨1, _⟩ => rfl)
  have er10 : ∀ k, ridx_main_v10 (ix2 r g) k = ix2 g k := fun k => funext fun a => Fin.ext (by
    match a with | ⟨0, _⟩ => rfl | ⟨1, _⟩ => rfl)
  have eb5 : idx_main_v4 (idx_main_v5 (ix2 r g)) = ix1 g := funext fun a => Fin.ext (by
    match a with | ⟨0, _⟩ => rfl)
  have eb13 : idx_main_v12 (idx_main_v13 (ix2 r g)) = ix1 g := funext fun a => Fin.ext (by
    match a with | ⟨0, _⟩ => rfl)
  have s3 : ∀ k : Fin 512, x3 (ix2 g k) + (Ideal.sign (x3 (ix2 g k)) - x3 (ix2 g k)) = Ideal.sign (x3 (ix2 g k)) :=
    fun k => Cert.Cell.add_sign_sub_self _ (hw3 _)
  have s4 : ∀ k : Fin 512, x4 (ix2 g k) + (Ideal.sign (x4 (ix2 g k)) - x4 (ix2 g k)) = Ideal.sign (x4 (ix2 g k)) :=
    fun k => Cert.Cell.add_sign_sub_self _ (hw4 _)
  rw [val_main_v14_apply, val_main_v11_apply, val_main_v6_apply, val_main_v3_apply, val_main_v10_apply,
    val_main_v5_apply, val_main_v4_apply, val_main_v13_apply, val_main_v12_apply]
  simp only [el3, er3, el10, er10, eb5, eb13, val_main_v2_apply, val_main_v1_apply, val_main_v0_apply,
    val_main_v9_apply, val_main_v8_apply, val_main_v7_apply, Ideal.addf_def, Ideal.subf_def, Ideal.hostUnary_sign_def,
    s3, s4]
  exact Cert.Cell.add_regroup _ _ _ _

/-- The quotient the reference spells for the logistic function, at one entry. -/
theorem sigmoid_quot (z : EReal) :
    FloatOps.hostDivf (F := Ideal) (φ := .f32) (FloatOps.ofBits .f32 0x3F800000#32)
        (FloatOps.addf (FloatOps.ofBits .f32 0x3F800000#32) (FloatOps.hostUnary .exp (FloatOps.hostNegf z)))
      = Ideal.logistic z := by
  simp only [Ideal.hostDivf_def, Ideal.addf_def, Ideal.hostUnary_exp_def, Ideal.hostNegf_def, Ideal.negf_def, Ideal.ofBits_def,
    Ideal.ofBits_one_f32]
  rfl

/-- The reference's second result is the new cell state. -/
theorem cell_eq (hw3 : ∀ j, ∃ r : ℝ, x3 j = (r : EReal)) (hw4 : ∀ j, ∃ r : ℝ, x4 j = (r : EReal)) :
    val_main_v34 (F := Ideal) x0 x1 x2 x3 x4 x5 x6 = Cert.Cell.cellNext x0 x1 x2 x3 x4 x5 x6 := by
  funext i
  obtain ⟨r, c, rfl⟩ : ∃ (r : Fin 8192) (c : Fin 512), i = ix2 r c := ⟨i 0, i 1, eq_ix2 i⟩
  have e15 : idx_main_v15 (ix2 r c) = ix2 r (Cert.Cell.gcol 0 (by omega) c) := funext fun a => Fin.ext (by
    match a with | ⟨0, _⟩ => rfl | ⟨1, _⟩ => rfl)
  have e16 : idx_main_v16 (ix2 r c) = ix2 r (Cert.Cell.gcol 512 (by omega) c) := funext fun a => Fin.ext (by
    match a with | ⟨0, _⟩ => rfl | ⟨1, _⟩ => exact Nat.add_comm _ _)
  have e17 : idx_main_v17 (ix2 r c) = ix2 r (Cert.Cell.gcol 1024 (by omega) c) := funext fun a => Fin.ext (by
    match a with | ⟨0, _⟩ => rfl | ⟨1, _⟩ => exact Nat.add_comm _ _)
  simp only [val_main_v34_apply, val_main_v25_apply, val_main_v24_apply, val_main_v23_apply, val_main_cst_0_apply,
    val_main_v22_apply, val_main_v21_apply, val_main_cst_apply, val_main_v20_apply, val_main_v19_apply, val_main_v16_apply,
    val_main_v33_apply, val_main_v31_apply, val_main_v30_apply, val_main_cst_2_apply, val_main_v29_apply, val_main_v28_apply,
    val_main_cst_1_apply, val_main_v27_apply, val_main_v26_apply, val_main_v15_apply, val_main_v32_apply, val_main_v17_apply,
    e15, e16, e17, gates_eq x0 x1 x3 x4 x5 x6 hw3 hw4, sigmoid_quot]
  rfl

/-- The reference's first result is the new hidden state. -/
theorem hid_eq (hw3 : ∀ j, ∃ r : ℝ, x3 j = (r : EReal)) (hw4 : ∀ j, ∃ r : ℝ, x4 j = (r : EReal)) :
    val_main_v42 (F := Ideal) x0 x1 x2 x3 x4 x5 x6 = Cert.Cell.hidNext x0 x1 x2 x3 x4 x5 x6 := by
  funext i
  obtain ⟨r, c, rfl⟩ : ∃ (r : Fin 8192) (c : Fin 512), i = ix2 r c := ⟨i 0, i 1, eq_ix2 i⟩
  have e18 : idx_main_v18 (ix2 r c) = ix2 r (Cert.Cell.gcol 1536 (by omega) c) := funext fun a => Fin.ext (by
    match a with | ⟨0, _⟩ => rfl | ⟨1, _⟩ => exact Nat.add_comm _ _)
  rw [val_main_v42_apply, val_main_v41_apply, cell_eq x0 x1 x2 x3 x4 x5 x6 hw3 hw4]
  simp only [val_main_v40_apply, val_main_v39_apply, val_main_cst_4_apply, val_main_v38_apply, val_main_v37_apply,
    val_main_cst_3_apply, val_main_v36_apply, val_main_v35_apply, val_main_v18_apply, e18,
    gates_eq x0 x1 x3 x4 x5 x6 hw3 hw4, sigmoid_quot]
  rfl

end Cert.ReferenceIdeal.RefCell

end
-- ==== Proof.LibFiniteEntry.lean ====
/-
  General facts about the printed test "every entry of a float array has absolute value below +∞", read at the ideal
  values, where a float is an extended real.

  * The f32 pattern 0x7F800000 denotes +∞.
  * An extended real whose absolute value max(x, -x) is below +∞ is neither infinity, hence a real number.
  * A strict comparison of extended reals that came out true is the strict inequality.
  * So one entry of the printed test `|a| < +∞` (the array's absolute value compared, entry by entry, with the
    broadcast +∞ pattern) that came out true says that entry of `a` is a real number — at any shape.
-/
import Idealize.ShloMosaic.PureOps.Ideal.Laws
import Idealize.ShloMosaic.Lib.ValueIdx

noncomputable section

namespace Cert.LibFiniteEntry

open Idealize.ShloMosaic

/-- The f32 pattern of +∞ denotes +∞. -/
theorem ofBits_inf_f32 : Ideal.ofBits .f32 0x7F800000#32 = ⊤ := by
  simp [Ideal.ofBits, Ideal.ieee]

/-- An extended real whose absolute value is below +∞ is a real. -/
theorem real_of_abs_lt_top (x : EReal) (h : max x (-x) < ⊤) : ∃ r : ℝ, x = (r : EReal) := by
  have hb : x ≠ ⊥ := by
    rintro rfl
    rw [EReal.neg_bot, max_eq_right bot_le] at h
    exact lt_irrefl _ h
  have ht : x ≠ ⊤ := by
    rintro rfl
    rw [EReal.neg_top, max_eq_left bot_le] at h
    exact lt_irrefl _ h
  exact ⟨x.toReal, (EReal.coe_toReal ht hb).symm⟩

/-- A strict comparison of extended reals that came out true. -/
theorem lt_of_cmp_olt {x y : EReal} (h : Ideal.cmp .olt x y = 1#1) : x < y := by
  by_contra hn
  have h0 : Ideal.cmp .olt x y = 0#1 := by simp [Ideal.cmp, hn]
  rw [h0] at h
  exact absurd h (by decide)

/-- One entry of the printed test `|a| < +∞` that came out true: that entry of `a` is a real. -/
theorem real_of_finite_test {s : Shape} (a : FVec Ideal s .f32) (hb : (⟨0, ![]⟩ : Shape).BroadcastsInDim s ![]) (j : s.Idx)
    (h : cmpf .olt (Host.absf a) (broadcastInDim s ![] hb (constant (F := Ideal) ⟨0, ![]⟩ .f32 0x7F800000#32)) j = 1#1) :
    ∃ r : ℝ, a j = (r : EReal) := by
  have hlt : max (a j) (-(a j)) < Ideal.ofBits .f32 0x7F800000#32 := lt_of_cmp_olt h
  rw [ofBits_inf_f32] at hlt
  exact real_of_abs_lt_top _ hlt

end Cert.LibFiniteEntry

end
-- ==== Proof.Finite.lean ====
/-
  From the precondition to the one fact the value proof needs of it: every entry of the two weight matrices is a
  real number.

  The precondition is the conjunction, over the seven inputs, of "every entry has absolute value below +∞"; the
  fourth and fifth conjuncts are the two weight matrices', and an entry whose absolute value is below +∞ is a real.
-/
import proofs.«119811_j33423435498265_2_alg».proof.Pre_finite_inputs
import proofs.«119811_j33423435498265_2_alg».proof.Proof.LibFiniteEntry
import Idealize.ShloMosaic.Lib.ReduceAll
import Idealize.ShloMosaic.Lib.Affine
import Idealize.ShloMosaic.PureOps.Ideal.Laws
import Idealize.ShloMosaic.Lib.ValueIdx

noncomputable section

namespace Cert.Pre_finite_inputs.Finite

open Cert.Pre_finite_inputs Idealize.ShloMosaic Idealize.ShloMosaic.ValueIdx

instance : Subsingleton S_.Idx := ⟨fun _ _ => funext fun d => d.elim0⟩

variable [Facts]

/-- Under the precondition every entry of the two weight matrices is a real. -/
theorem weights_real (a0 a1 a2 : FVec Ideal S8192x512 .f32) (a3 a4 : FVec Ideal S2048x512 .f32) (a5 a6 : FVec Ideal S2048 .f32)
    (h : fn (F := Ideal) a0 a1 a2 a3 a4 a5 a6 = fun _ => 1#1) :
    (∀ j, ∃ r : ℝ, a3 j = (r : EReal)) ∧ (∀ j, ∃ r : ℝ, a4 j = (r : EReal)) := by
  have h0 := congrFun h ix0
  dsimp only [fn, fn_part1] at h0
  obtain ⟨h1, -⟩ := IntOp.andi_eq_one.1 h0
  obtain ⟨h2, -⟩ := IntOp.andi_eq_one.1 h1
  obtain ⟨h3, h4⟩ := IntOp.andi_eq_one.1 h2
  obtain ⟨-, h5⟩ := IntOp.andi_eq_one.1 h3
  exact ⟨fun j => Cert.LibFiniteEntry.real_of_finite_test a3 _ j (Host.reduce_andi_all _ _ _ _ _ h5 j),
    fun j => Cert.LibFiniteEntry.real_of_finite_test a4 _ j (Host.reduce_andi_all _ _ _ _ _ h4 j)⟩

end Cert.Pre_finite_inputs.Finite

end
-- ==== Proof.Claims.lean ====
/-
  The five claims.

  The three frames: the kernel's two are generated whole; the reference has no kernel, so its frame is its generated
  run with the two results dropped. The idealization rewrote no operation, so `preserves` is `True`.

  The value claim: the idealized kernel ends with its two results at the specification's `hidNext` and `cellNext` of
  the argument arrays (the kernel's run, block by block), and the idealized reference ends with its two results at the
  same two functions of ITS argument arrays — for finite weights, which the precondition provides: the reference adds
  `w + (sign w - w)` where the kernel uses `sign w`, and these differ at an infinite `w`. The memories agree on the
  arguments, so the results are equal.
-/
import proofs.«119811_j33423435498265_2_alg».proof.Defs
import proofs.«119811_j33423435498265_2_alg».proof.Proof.Gen.Kernel.Frame
import proofs.«119811_j33423435498265_2_alg».proof.Proof.Gen.KernelIdeal.Frame
import proofs.«119811_j33423435498265_2_alg».proof.Proof.Gen.ReferenceIdeal.Run
import proofs.«119811_j33423435498265_2_alg».proof.Proof.Gen.ReferenceIdeal.Read
import proofs.«119811_j33423435498265_2_alg».proof.Proof.Gen.Pre_finite_inputs
import proofs.«119811_j33423435498265_2_alg».proof.Proof.KernelCell
import proofs.«119811_j33423435498265_2_alg».proof.Proof.RefCell
import proofs.«119811_j33423435498265_2_alg».proof.Proof.Finite

noncomputable section

open Idealize.ShloMosaic Idealize.ShloMosaic.TcCoe Idealize.SL.Sem

namespace Cert.Proof.CellClaims

theorem frame_kernel : Cert.frame_Kernel := fun m ρ _ => Cert.Kernel.Gen.frame m ρ

theorem frame_kernelIdeal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

open Cert.KernelIdeal.CellHost in
theorem algebraic : Cert.algebraic_KernelIdeal_ReferenceIdeal := by
  intro m ρ m' ρ' hpre hagree
  refine ⟨fun c => Cert.Cell.hidNext (argX m c) (argH m c) (argC m c) (argWih m c) (argWhh m c) (argBih m c) (argBhh m c),
    fun c => Cert.Cell.cellNext (argX m c) (argH m c) (argC m c) (argWih m c) (argWhh m c) (argBih m c) (argBhh m c),
    Cert.KernelIdeal.CellValue.run m ρ, ?_⟩
  refine (θ_run Cert.ReferenceIdeal.defs _ _).mono (fun _ h c => ?_) (Cert.ReferenceIdeal.Value.run (F := Ideal) m' ρ')
  obtain ⟨g0, g1, g2, g3, g4, g5, g6⟩ := hagree c
  obtain ⟨hw3, hw4⟩ := Cert.Pre_finite_inputs.Finite.weights_real _ _ _ _ _ _ _ (hpre c)
  refine ⟨(h c).1.trans ?_, (h c).2.1.trans ?_, (h c).2.2⟩
  · rw [Cert.ReferenceIdeal.Read.val_main_v42_eq, g0, g1, g2, g3, g4, g5, g6]
    exact Cert.ReferenceIdeal.RefCell.hid_eq _ _ _ _ _ _ _ hw3 hw4
  · rw [g0, g1, g2, g3, g4, g5, g6]
    exact (Cert.ReferenceIdeal.Read.val_main_v34_eq _ _ _ _ _ _ _).trans
      (Cert.ReferenceIdeal.RefCell.cell_eq _ _ _ _ _ _ _ hw3 hw4)

end Cert.Proof.CellClaims

end
-- ==== Proof.lean ====
/-
  A binarized-weight LSTM cell: a kernel tiled over the batch rows against its plain reference, equal as functions of
  the seven argument arrays on the extended reals whenever the inputs are finite.

  Both programs compute, for row `r` and column `c`,
      gate r g = Σ_k x[r,k] · sign W_ih[g,k] + Σ_k h[r,k] · sign W_hh[g,k] + (b_ih[g] + b_hh[g]),
      c'[r,c]  = σ(gate r (c+512)) · c[r,c] + σ(gate r c) · tanh (gate r (c+1024)),
      h'[r,c]  = σ(gate r (c+1536)) · tanh c'[r,c].
  The kernel takes the signs, transposes them and adds the two biases before its grid, then at each of 16 grid points
  forms a 512-row block of both results from two matrix products and one logistic operation per gate; the reference
  binarizes as `w + (sign w - w)`, adds the four summands of a gate in another order, and spells the logistic
  function as a quotient. The modules, in the order they depend on each other:
    CellSpec     the function above and the three laws (finite `w`: w + (sign w - w) = sign w; regrouping; the quotient)
    RefCell      the reference's results are that function (reading the reference's operations entry by entry)
    KernelGate   the body's gate block at an entry: two inner products and the bias
    KernelBlock  the body's two output blocks at an entry
    KernelHost   what the region finds in the arrays the host prepares
    KernelCell   a point's blocks are rows 512·t … of the arrays; the 16 blocks tile each result; the kernel's run
    LibMatmulPlain   a plain matrix product from the zero accumulator, at an entry, is an inner product
    LibFiniteEntry   an entry whose absolute value tests below +∞ is a real number
    Finite       the precondition makes every weight a real number
    Claims       the three frames, the (empty) idealization ledger, and the value claim
-/
import proofs.«119811_j33423435498265_2_alg».proof.Defs
import proofs.«119811_j33423435498265_2_alg».proof.Proof.Gen.Kernel
import proofs.«119811_j33423435498265_2_alg».proof.Proof.Gen.Kernel.Skeleton
import proofs.«119811_j33423435498265_2_alg».proof.Proof.Gen.Kernel.Launch
import proofs.«119811_j33423435498265_2_alg».proof.Proof.Gen.Kernel.Points
import proofs.«119811_j33423435498265_2_alg».proof.Proof.Gen.Kernel.Frame
import proofs.«119811_j33423435498265_2_alg».proof.Proof.Gen.KernelIdeal
import proofs.«119811_j33423435498265_2_alg».proof.Proof.Gen.KernelIdeal.Skeleton
import proofs.«119811_j33423435498265_2_alg».proof.Proof.Gen.KernelIdeal.Launch
import proofs.«119811_j33423435498265_2_alg».proof.Proof.Gen.KernelIdeal.Points
import proofs.«119811_j33423435498265_2_alg».proof.Proof.Gen.KernelIdeal.Frame
import proofs.«119811_j33423435498265_2_alg».proof.Proof.Gen.ReferenceIdeal
import proofs.«119811_j33423435498265_2_alg».proof.Proof.Gen.Pre_finite_inputs
import proofs.«119811_j33423435498265_2_alg».proof.Proof.Gen.KernelIdeal.Value
import proofs.«119811_j33423435498265_2_alg».proof.Proof.Gen.ReferenceIdeal.Run
import proofs.«119811_j33423435498265_2_alg».proof.Proof.Gen.ReferenceIdeal.Read
import proofs.«119811_j33423435498265_2_alg».proof.Proof.Claims
import Idealize.ShloMosaic.Adequacy
import Idealize.ShloMosaic.Init

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_finite_inputs.Gen.facts,
    CellClaims.frame_kernel, CellClaims.frame_kernelIdeal, CellClaims.frame_reference, CellClaims.preserves,
    CellClaims.algebraic⟩

end Cert.Proof

end
